-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8191x16382 : Shape := ⟨2, ![8191, 16382]⟩
abbrev S_ : Shape := ⟨0, ![]⟩

class Facts : Prop where
  bcast_S_S8191x16382 : S_.BroadcastsInDim S8191x16382 (![] : Fin 0 → Fin S8191x16382.rank)
  reducesTo_S8191x16382_S_d0_1 : S8191x16382.ReducesTo [0, 1] S_
  h_S_ : 0 < S_.numel

variable [Facts]

def fn {F : FTy → Type} [FloatOps F] (main_arg0 : FVec F S8191x16382 .f32) : IVec S_ 1 :=
  let main_v0 : FVec F S8191x16382 .f32 := Host.absf main_arg0
  let main_cst : FVec F S_ .f32 := constant S_ .f32 0x7F800000#32
  let main_v1 : FVec F S8191x16382 .f32 := broadcastInDim S8191x16382 ![] bcast_S_S8191x16382 main_cst
  let main_v2 : IVec S8191x16382 1 := cmpf .olt main_v0 main_v1
  let main_c : IVec S_ 1 := constantI S_ 1 1#1
  let main_v3 : IVec S_ 1 := (fun x v => Host.reduce IntOp.andi x v reducesTo_S8191x16382_S_d0_1 h_S_) main_v2 main_c
  main_v3
-- ==== Kernel.lean ====
abbrev S8191x16382 : Shape := ⟨2, ![8191, 16382]⟩
abbrev S64x16382 : Shape := ⟨2, ![64, 16382]⟩
abbrev S64 : Shape := ⟨1, ![64]⟩
abbrev S64x1 : Shape := ⟨2, ![64, 1]⟩

abbrev nBuf : Space → Nat
  | .hbm => 2
  | .vmem => 4
  | .smem => 0
  | _ => 0

abbrev bufTy : (tb : Table) → Fin (tcTables nBuf tb) → BufTy
  | .hbm, ⟨0, _⟩ => ⟨S8191x16382, .f32⟩
  | .hbm, ⟨1, _⟩ => ⟨S8191x16382, .f32⟩
  | .local _ .vmem, ⟨0, _⟩ => ⟨S64x16382, .f32⟩
  | .local _ .vmem, ⟨1, _⟩ => ⟨S64x16382, .f32⟩
  | .local _ .vmem, ⟨2, _⟩ => ⟨S64x16382, .f32⟩
  | .local _ .vmem, ⟨3, _⟩ => ⟨S64x16382, .f32⟩
  | _, _ => ⟨S8191x16382, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16382 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16382 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S64x16382_d0_w32 : S64x16382.Iotas .tc 32 [0]
  iota_S64x16382_d1_w32 : S64x16382.Iotas .tc 32 [1]
  inb_S64x16382_S64x16382_0_0 : ∀ a, (![0, 0] : Fin 2 → Nat) a + S64x16382.size a ≤ S64x16382.size a
  h_S64x16382 : 0 < S64x16382.numel
  reduces_S64x16382_S64 : S64x16382.Reduces [1] S64
  shapeCasts_S64_S64x1 : S64.ShapeCasts S64x1
  broadcasts_S64x1_S64x16382 : S64x1.Broadcasts S64x16382
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x16382.size a < S8191x16382.size a
  hwx0_0 : ∀ i : grid0.Coords, EltTy.bits .f32 = 32 ∨ (Rect.unit (s := S8191x16382) (fun a => cc0_transform_0 i a * S64x16382.size a) (fun a => (Pipeline.Clip.of (cc0_transform_0 i a) (S64x16382.size a) (S8191x16382.size a)).extent (S64x16382.size a)) fun a => Pipeline.Clip.inb (Pipeline.Clip.ok_of (hstart0_0 i a))).WholeWords (EltTy.packing .f32)
  hwxs0_0 : ∀ i : grid0.Coords, EltTy.bits .f32 = 32 ∨ (Rect.unit (s := S64x16382) (fun _ => 0) (fun a => (Pipeline.Clip.of (cc0_transform_0 i a) (S64x16382.size a) (S8191x16382.size a)).extent (S64x16382.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x16382.size a < S8191x16382.size a
  hwx0_1 : ∀ i : grid0.Coords, EltTy.bits .f32 = 32 ∨ (Rect.unit (s := S8191x16382) (fun a => cc0_transform_1 i a * S64x16382.size a) (fun a => (Pipeline.Clip.of (cc0_transform_1 i a) (S64x16382.size a) (S8191x16382.size a)).extent (S64x16382.size a)) fun a => Pipeline.Clip.inb (Pipeline.Clip.ok_of (hstart0_1 i a))).WholeWords (EltTy.packing .f32)
  hwxs0_1 : ∀ i : grid0.Coords, EltTy.bits .f32 = 32 ∨ (Rect.unit (s := S64x16382) (fun _ => 0) (fun a => (Pipeline.Clip.of (cc0_transform_1 i a) (S64x16382.size a) (S8191x16382.size a)).extent (S64x16382.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S64x16382.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S64x16382.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8191x16382 : Shape := ⟨2, ![8191, 16382]⟩
abbrev S8191 : Shape := ⟨1, ![8191]⟩
abbrev S8191x1 : Shape := ⟨2, ![8191, 1]⟩
abbrev S16382 : Shape := ⟨1, ![16382]⟩
abbrev S1x16382 : Shape := ⟨2, ![1, 16382]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8191x16382, .f32⟩
  | .hbm, ⟨1, _⟩ => ⟨S8191, .i32⟩
  | .hbm, ⟨2, _⟩ => ⟨S8191x1, .i32⟩
  | .hbm, ⟨3, _⟩ => ⟨S16382, .i32⟩
  | .hbm, ⟨4, _⟩ => ⟨S1x16382, .i32⟩
  | .hbm, ⟨5, _⟩ => ⟨S_, .i32⟩
  | .hbm, ⟨6, _⟩ => ⟨S8191x1, .i32⟩
  | .hbm, ⟨7, _⟩ => ⟨S8191x1, .i32⟩
  | .hbm, ⟨8, _⟩ => ⟨S8191x16382, .i32⟩
  | .hbm, ⟨9, _⟩ => ⟨S8191x16382, .i32⟩
  | .hbm, ⟨10, _⟩ => ⟨S8191x16382, .i1⟩
  | .hbm, ⟨11, _⟩ => ⟨S8191x16382, .f32⟩
  | .hbm, ⟨12, _⟩ => ⟨S_, .f32⟩
  | .hbm, ⟨13, _⟩ => ⟨S8191x16382, .f32⟩
  | .hbm, ⟨14, _⟩ => ⟨S8191x16382, .f32⟩
  | .hbm, ⟨15, _⟩ => ⟨S_, .f32⟩
  | .hbm, ⟨16, _⟩ => ⟨S8191, .f32⟩
  | .hbm, ⟨17, _⟩ => ⟨S_, .f32⟩
  | .hbm, ⟨18, _⟩ => ⟨S8191, .f32⟩
  | .hbm, ⟨19, _⟩ => ⟨S8191, .f32⟩
  | .hbm, ⟨20, _⟩ => ⟨S8191x1, .f32⟩
  | .hbm, ⟨21, _⟩ => ⟨S8191x16382, .f32⟩
  | .hbm, ⟨22, _⟩ => ⟨S8191x16382, .f32⟩
  | .hbm, ⟨23, _⟩ => ⟨S8191x16382, .f32⟩
  | .hbm, ⟨24, _⟩ => ⟨S_, .f32⟩
  | .hbm, ⟨25, _⟩ => ⟨S8191, .f32⟩
  | .hbm, ⟨26, _⟩ => ⟨S8191x1, .f32⟩
  | .hbm, ⟨27, _⟩ => ⟨S8191x16382, .f32⟩
  | .hbm, ⟨28, _⟩ => ⟨S8191x16382, .f32⟩
  | _, _ => ⟨S8191x16382, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_call0_v0 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S8191_S8191x1_0 : S8191.BroadcastsInDim S8191x1 (![0] : Fin 1 → Fin S8191x1.rank)
  bcast_S16382_S1x16382_1 : S16382.BroadcastsInDim S1x16382 (![1] : Fin 1 → Fin S1x16382.rank)
  bcast_S_S8191x1 : S_.BroadcastsInDim S8191x1 (![] : Fin 0 → Fin S8191x1.rank)
  bcast_S8191x1_S8191x16382_0_1 : S8191x1.BroadcastsInDim S8191x16382 (![0, 1] : Fin 2 → Fin S8191x16382.rank)
  bcast_S1x16382_S8191x16382_0_1 : S1x16382.BroadcastsInDim S8191x16382 (![0, 1] : Fin 2 → Fin S8191x16382.rank)
  bcast_S_S8191x16382 : S_.BroadcastsInDim S8191x16382 (![] : Fin 0 → Fin S8191x16382.rank)
  reducesTo_S8191x16382_S8191_d1 : S8191x16382.ReducesTo [1] S8191
  h_S_ : 0 < S_.numel
  bcast_S_S8191 : S_.BroadcastsInDim S8191 (![] : Fin 0 → Fin S8191.rank)

variable [Facts₀]

class Facts : Prop extends Facts₀ where

variable [Facts]
-- ==== Proof.KernelBody.lean ====
/-
  The body of the masked row-softmax kernel, run once on whole staging buffers.

  The body loads its whole input block `x` (64 rows of 16382 lanes), computes from it one value — the mask
  `8192 + row > lane` of the block's rows (the row counted from the grid point's first row), `|x|` where the mask
  holds and zero elsewhere, each row's maximum, `exp` of the difference, each row's sum, and the quotient — and
  stores that value over its whole output block. So after the body the input buffer holds what it held and the
  output buffer holds that one function of the input block, whatever the output buffer held before.
  Nothing here depends on what a float is: the statement is the same at every reading of the float operations.
-/
import proofs.«120278_j12884901888386_1_alg».proof.Proof.Gen.Kernel.Frame
import proofs.«120278_j12884901888386_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole block as a rectangle: offsets zero, the block's own extents. -/
abbrev whole64 : Rect S64x16382 := Rect.unit (s := S64x16382) ![0, 0] S64x16382.size inb_S64x16382_S64x16382_0_0

theorem zero_offsets : (![0, 0] : Fin 2 → Nat) = fun _ => 0 := funext fun a => by fin_cases a <;> rfl

/-- What the one store leaves in the output block, as the contents its piece determines. -/
def stored (i : grid0.Coords) (x : Vec F S64x16382 .f32) : Vec F S64x16382 .f32 :=
  View.canon [⟨whole64, k0_pay1 i (View.ld x whole64)⟩]

/-- The store covers the block, and the load reads all of it: the output block ends at the row-softmax of the input block. -/
theorem stored_eq (i : grid0.Coords) (x : Vec F S64x16382 .f32) : stored i x = k0_pay1 i x := by
  unfold stored
  rw [View.canon_unit_zero zero_offsets, View.ld_unit_zero zero_offsets]

set_option maxHeartbeats 1000000 in
/-- The body on whole staging memrefs, the input's at contents `x` and the output's at anything: it runs to the
    continuation with the input's contents unchanged and the output's the row-softmax of `x`. -/
theorem run (c : Dev nD) (E : Set ℕ) (i : grid0.Coords)
    (arg1 : Memref sig .tc .vmem S64x16382 .f32) (harg1 : arg1.IsWhole)
    (arg2 : Memref sig .tc .vmem S64x16382 .f32) (harg2 : arg2.IsWhole)
    (x : Vec F S64x16382 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k0_pay1 i x)) -∗ K ⟨⟩))
      ⊢ wp frame (wpE (defs₀ (F := F)) Variants.none c none) E (cc0__mask_abs_softmax_kernel i arg1 harg1 arg2 harg2) K := by
  rw [← stored_eq]
  simp only [cc0__mask_abs_softmax_kernel_eq_skeleton]; unfold cc0__mask_abs_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (fun y => ⟨_, List.mem_singleton_self _, View.mem_set_unit_zero zero_offsets inb_S64x16382_S64x16382_0_0 y⟩)

end Cert.Kernel.Body

end
-- ==== Proof.KernelData.lean ====
/-
  The proof data of the kernel's one pipeline: what each staging buffer holds after the body at each grid point.

  The input's blocks are 64 rows of the argument array; the array has 8191 rows, so the last block (point 127) has
  only its first 63 rows inside the array, and the fetch there lands those 63 rows and leaves the 64th at words
  nothing names. The data name the input buffer after the body as the block's rows inside the array, filled out
  to 64 rows with zeros, and the output buffer as the row-softmax of THAT block; the body obligation is only asked
  of the rows inside the array, which is where the choice of the filler does not show.
-/
import proofs.«120278_j12884901888386_1_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A block of zeros: the filler of the rows past the array's end. -/
def zeros : S64x16382.Idx → Elt F .f32 := fun _ => FloatOps.ofBits (F := F) .f32 0x00000000#32

/-- The input block at point `t` as a whole 64-row block: its rows inside the array, zeros past the array's end. -/
def inBlk (c : Dev nD) (t : Fin cfg0.N) : S64x16382.Idx → Elt F .f32 :=
  win0_0.fill (grid0.coords t) zeros (iblk m c 0 t)

/-- The proof data on core `c`: the arrays as the region finds them; after the body at point `t` the input's buffer
    at its (filled) block and the output's at the row-softmax of it; the invariant the scoped rest and the generator
    register, which the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inBlk m c t
    | ⟨1, _⟩ => k0_pay1 (grid0.coords t) (inBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inBlk m c t := by dsimp only [dats]

theorem after_1 (c : Dev nD) (t : Fin cfg0.N) :
    (dats m 0 c).after 1 t = k0_pay1 (grid0.coords t) (inBlk m c t) := by dsimp only [dats]

/-- The input is fetched at every point: its buffer holds the block's rows inside the array, and whatever the
    buffer held (`d`) past them. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- The output is written back at every point: its buffer holds contents nothing names when the body runs. -/
theorem before_1 (c : Dev nD) (t : Fin cfg0.N) (d) : (dats m 0 c).before 1 t d = d :=
  (dats m 0 c).before_out_reset 1 rfl t (by
    by_cases h0 : t.val = 0
    · exact .inl h0
    · exact .inr ⟨h0, flush0_1 _⟩) d

end Cert.Kernel.Body

end
-- ==== Proof.KernelFrame.lean ====
/-
  The frame of the kernel as printed, at any reading of the float operations: every weakly fair execution
  terminates, nothing faults, and the argument array ends as it began.

  The frame says nothing of the result array, so the proof data do not name what the body leaves in the output's
  staging buffer: that window is forgotten — handed to the body at any contents and taken back at any. (At the
  word-level reading a row's sum is a function of the whole 64-row block the body loaded, the row past the array's
  end included, so what the last block's rows inside the array end holding is not a function of the array alone; the
  frame does not need it to be.) The input's buffer is stated as in the idealized kernel's data: after the body it
  holds what it held, and the obligation asks that of its rows inside the array only.
-/
import proofs.«120278_j12884901888386_1_alg».proof.Proof.KernelData

set_option maxRecDepth 16384

noncomputable section

namespace Cert.Kernel.WordFrame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window the frame does not read after the body: the output's. -/
def forgets : Fin 2 → Bool := fun | 0 => false | 1 => true | ⟨_ + 2, h⟩ => absurd h (Nat.not_lt.2 (Nat.le_add_left _ _))

/-- At every point: the input's buffer arrives holding its block's rows inside the array and anything past them, the
    output's holding anything; the body leaves the input's as it was and the output's at some contents. -/
theorem body_obligation (c : Dev nD) :
    BodyObligationLoose (dats (F := F) m 0 c) (defs₀ (F := F)) Variants.none () Set.univ forgets := fun t => by
  rw [bigSep_W0, bigSep_W0]
  simp only [forgets]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0]
  iapply (Body.run (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_0.fill (grid0.coords t) d0 (iblk m c 0 t)) _)
  isplitl [H0]; · iexact H0
  isplitl [H1]; · iexists d1; iexact H1
  iintro ⟨H0, H1⟩
  isplitl [HΦ]; · iexact HΦ
  isplitl [Ho]; · iexact Ho
  isplitl [H0]
  · iexists d0
    rw [after_0]
    unfold inBlk
    rw [Window.cut_fill]
    iexact H0
  · iexists _
    iexact H1

set_option backward.isDefEq.respectTransparency.types false in
/-- Every weakly fair execution terminates; the argument array, an input of the pipeline, ends at its entry contents
    (the relational post says nothing of the forgotten window's array beyond that it was overwritten block by block). -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame: the run's post read at the argument array — an input window's array ends at its entry contents, which
    are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono
    (fun _ h c => (Eq.mp (congrFun (((dats m 0 c).toRForget forgets).ArrAt_in 0 rfl _) _) ((h c).1 0)).trans
      ((A_eq m c 0).trans (V_main_arg0 m c)))
    (run_main m ρ)

end Cert.Kernel.WordFrame

end
-- ==== Proof.IdealBody.lean ====
/-
  The body of the masked row-softmax kernel, run once on whole staging buffers.

  The body loads its whole input block `x` (64 rows of 16382 lanes), computes from it one value — the mask
  `8192 + row > lane` of the block's rows (the row counted from the grid point's first row), `|x|` where the mask
  holds and zero elsewhere, each row's maximum, `exp` of the difference, each row's sum, and the quotient — and
  stores that value over its whole output block. So after the body the input buffer holds what it held and the
  output buffer holds that one function of the input block, whatever the output buffer held before.
  Nothing here depends on what a float is: the statement is the same at every reading of the float operations.
-/
import proofs.«120278_j12884901888386_1_alg».proof.Proof.Gen.KernelIdeal.Frame
import proofs.«120278_j12884901888386_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole block as a rectangle: offsets zero, the block's own extents. -/
abbrev whole64 : Rect S64x16382 := Rect.unit (s := S64x16382) ![0, 0] S64x16382.size inb_S64x16382_S64x16382_0_0

theorem zero_offsets : (![0, 0] : Fin 2 → Nat) = fun _ => 0 := funext fun a => by fin_cases a <;> rfl

/-- What the one store leaves in the output block, as the contents its piece determines. -/
def stored (i : grid0.Coords) (x : Vec F S64x16382 .f32) : Vec F S64x16382 .f32 :=
  View.canon [⟨whole64, k0_pay1 i (View.ld x whole64)⟩]

/-- The store covers the block, and the load reads all of it: the output block ends at the row-softmax of the input block. -/
theorem stored_eq (i : grid0.Coords) (x : Vec F S64x16382 .f32) : stored i x = k0_pay1 i x := by
  unfold stored
  rw [View.canon_unit_zero zero_offsets, View.ld_unit_zero zero_offsets]

set_option maxHeartbeats 1000000 in
/-- The body on whole staging memrefs, the input's at contents `x` and the output's at anything: it runs to the
    continuation with the input's contents unchanged and the output's the row-softmax of `x`. -/
theorem run (c : Dev nD) (E : Set ℕ) (i : grid0.Coords)
    (arg1 : Memref sig .tc .vmem S64x16382 .f32) (harg1 : arg1.IsWhole)
    (arg2 : Memref sig .tc .vmem S64x16382 .f32) (harg2 : arg2.IsWhole)
    (x : Vec F S64x16382 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k0_pay1 i x)) -∗ K ⟨⟩))
      ⊢ wp frame (wpE (defs₀ (F := F)) Variants.none c none) E (cc0__mask_abs_softmax_kernel i arg1 harg1 arg2 harg2) K := by
  rw [← stored_eq]
  simp only [cc0__mask_abs_softmax_kernel_eq_skeleton]; unfold cc0__mask_abs_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (fun y => ⟨_, List.mem_singleton_self _, View.mem_set_unit_zero zero_offsets inb_S64x16382_S64x16382_0_0 y⟩)

end Cert.KernelIdeal.Body

end
-- ==== Proof.IdealData.lean ====
/-
  The proof data of the kernel's one pipeline: what each staging buffer holds after the body at each grid point.

  The input's blocks are 64 rows of the argument array; the array has 8191 rows, so the last block (point 127) has
  only its first 63 rows inside the array, and the fetch there lands those 63 rows and leaves the 64th at words
  nothing names. The data name the input buffer after the body as the block's rows inside the array, filled out
  to 64 rows with zeros, and the output buffer as the row-softmax of THAT block; the body obligation is only asked
  of the rows inside the array, which is where the choice of the filler does not show.
-/
import proofs.«120278_j12884901888386_1_alg».proof.Proof.IdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A block of zeros: the filler of the rows past the array's end. -/
def zeros : S64x16382.Idx → Elt F .f32 := fun _ => FloatOps.ofBits (F := F) .f32 0x00000000#32

/-- The input block at point `t` as a whole 64-row block: its rows inside the array, zeros past the array's end. -/
def inBlk (c : Dev nD) (t : Fin cfg0.N) : S64x16382.Idx → Elt F .f32 :=
  win0_0.fill (grid0.coords t) zeros (iblk m c 0 t)

/-- The proof data on core `c`: the arrays as the region finds them; after the body at point `t` the input's buffer
    at its (filled) block and the output's at the row-softmax of it; the invariant the scoped rest and the generator
    register, which the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inBlk m c t
    | ⟨1, _⟩ => k0_pay1 (grid0.coords t) (inBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inBlk m c t := by dsimp only [dats]

theorem after_1 (c : Dev nD) (t : Fin cfg0.N) :
    (dats m 0 c).after 1 t = k0_pay1 (grid0.coords t) (inBlk m c t) := by dsimp only [dats]

/-- The input is fetched at every point: its buffer holds the block's rows inside the array, and whatever the
    buffer held (`d`) past them. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- The output is written back at every point: its buffer holds contents nothing names when the body runs. -/
theorem before_1 (c : Dev nD) (t : Fin cfg0.N) (d) : (dats m 0 c).before 1 t d = d :=
  (dats m 0 c).before_out_reset 1 rfl t (by
    by_cases h0 : t.val = 0
    · exact .inl h0
    · exact .inr ⟨h0, flush0_1 _⟩) d

end Cert.KernelIdeal.Body

end
-- ==== Proof.RowSoftmax.lean ====
/-
  The row-wise masked softmax, as one function of a row, and the three readings of array operations at an index
  that both programs' texts reduce to it by.

  For a row `v` of 16382 extended reals whose row number is the 32-bit word `R`:
    w c   = |v c|  where  8192 + R > c  (the words compared as signed 32-bit integers), and 0 elsewhere;
    m     = the maximum of the w c, starting from the float pattern of minus infinity;
    e c   = exp (w c - m);
    the row's result at lane q is  e q / (the sum of the e c).
  The kernel computes this on each row of a 64-row block, with the row's number the block's first row plus the
  row's place in the block, in wrapping 32-bit arithmetic; the reference computes it on each row of the whole array,
  with the row's number read off an iota. The two row numbers are the same word, because taking a natural number to
  its 32-bit word commutes with sums and products.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value

noncomputable section

namespace Cert.RowSoftmax

open Idealize.ShloMosaic Idealize.ShloMosaic.ValueIdx

/-! ## The function of a row -/

/-- Whether lane `c` of the row numbered `R` is kept: `8192 + R > c`, signed, on 32-bit words. -/
def keepBit (R : BitVec 32) (c : Fin 16382) : BitVec 1 :=
  IntOp.cmpi .sgt (IntOp.addi 8192#32 R) (BitVec.ofNat 32 c.val)

/-- The masked magnitudes of the row. -/
def masked (R : BitVec 32) (v : Fin 16382 → EReal) (c : Fin 16382) : EReal :=
  Scalar.select (keepBit R c) (FloatOps.absf (F := Ideal) (φ := .f32) (v c)) (FloatOps.ofBits (F := Ideal) .f32 0x00000000#32)

/-- Their maximum, from minus infinity's pattern. -/
def rowMax (R : BitVec 32) (v : Fin 16382 → EReal) : EReal :=
  (Finset.univ : Finset (Fin 16382)).fold max (FloatOps.ofBits (F := Ideal) .f32 0xFF800000#32) (masked R v)

/-- The exponentials of the differences. -/
def expd (R : BitVec 32) (v : Fin 16382 → EReal) (c : Fin 16382) : EReal :=
  FloatOps.exp (F := Ideal) (φ := .f32) (FloatOps.subf (F := Ideal) (φ := .f32) (masked R v c) (rowMax R v))

/-- The row's softmax at lane `q`. -/
def rowSoftmax (R : BitVec 32) (v : Fin 16382 → EReal) (q : Fin 16382) : EReal :=
  FloatOps.divf (F := Ideal) (φ := .f32) (expd R v q) (∑ c : Fin 16382, expd R v c)

/-- The block's first row plus the place in the block, computed on words, is the word of the row's number. -/
theorem rowWord_eq (t p : Nat) :
    IntOp.addi (Scalar.muli (BitVec.ofNat 32 t) 64#32) (BitVec.ofNat 32 p) = BitVec.ofNat 32 (t * 64 + p) := by
  show BitVec.ofNat 32 t * 64#32 + BitVec.ofNat 32 p = BitVec.ofNat 32 (t * 64 + p)
  rw [BitVec.ofNat_add, BitVec.ofNat_mul]

/-! ## Array operations read at an index -/

variable {α : Type} {n0 n1 : Nat}

/-- A vector of `n0` entries viewed as a column and spread along the rows of an `n0 × n1` array: the array's
    entry at `j` is the vector's at `j`'s row. -/
theorem column_apply (v : (⟨1, ![n0]⟩ : Shape).Idx → α)
    (hc : (⟨1, ![n0]⟩ : Shape).ShapeCasts ⟨2, ![n0, 1]⟩) (hb : (⟨2, ![n0, 1]⟩ : Shape).Broadcasts ⟨2, ![n0, n1]⟩)
    (j : (⟨2, ![n0, n1]⟩ : Shape).Idx) :
    broadcastTo ⟨2, ![n0, n1]⟩ (shapeCast ⟨2, ![n0, 1]⟩ v hc) hb j = v (ix1 (j 0)) := by
  have h0 : (j 0).val < n0 := (j 0).isLt
  refine (broadcastTo_apply _ hb j (ix2 (j 0) (⟨0, Nat.one_pos⟩ : Fin 1)) (fun a => ?_)).trans ?_
  · match a with
    | ⟨0, _⟩ =>
      show (j 0).val = if n0 = 1 then 0 else (j 0).val
      split
      · omega
      · rfl
    | ⟨1, _⟩ =>
      show 0 = if (1 : Nat) = 1 then 0 else (j 1).val
      rw [if_pos rfl]
  · refine shapeCast_apply v hc _ (ix1 (j 0)) ?_
    rw [Shape.rowMajor_val_one, Shape.rowMajor_val_two]
    show (j 0).val = (j 0).val * 1 + 0
    omega

/-- The source index over row `p` with lane `k` inserted is `(p, k)`. -/
theorem lift_row (h : (⟨2, ![n0, n1]⟩ : Shape).Reduces [1] ⟨1, ![n0]⟩) (p : Fin n0) (k : Fin n1) :
    h.lift (ix1 p) k = ix2 p k :=
  funext fun a => Fin.ext (by match a with | ⟨0, _⟩ => rfl | ⟨1, _⟩ => rfl)

/-- A row maximum at the ideal values: the fold of `max` over the row's lanes, from the accumulator's value. -/
theorem rowMax_apply (src : FVec Ideal ⟨2, ![n0, n1]⟩ .f32) (acc : BitVec 32)
    (h : (⟨2, ![n0, n1]⟩ : Shape).Reduces [1] ⟨1, ![n0]⟩) (hφ : FKind.Formats .f32)
    (hacc : acc = FKind.maximumf.neutral .f32 hφ) (p : Fin n0) :
    multiReduction .maximumf [1] ⟨1, ![n0]⟩ src acc h hφ hacc (ix1 p)
      = (Finset.univ : Finset (Fin n1)).fold max (FloatOps.ofBits (F := Ideal) .f32 acc) (fun k => src (ix2 p k)) := by
  have e : (src ∘ h.lift (ix1 p)) = fun k => src (ix2 p k) := funext fun k => congrArg src (lift_row h p k)
  rw [Ideal.multiReduction_maximumf_single, e]
  rfl

/-- A row sum at the ideal values: the sum over the row's lanes. -/
theorem rowSum_apply (src : FVec Ideal ⟨2, ![n0, n1]⟩ .f32) (acc : BitVec 32)
    (h : (⟨2, ![n0, n1]⟩ : Shape).Reduces [1] ⟨1, ![n0]⟩) (hφ : FKind.Formats .f32)
    (hacc : acc = FKind.add.neutral .f32 hφ) (p : Fin n0) :
    multiReduction .add [1] ⟨1, ![n0]⟩ src acc h hφ hacc (ix1 p) = ∑ k : Fin n1, src (ix2 p k) := by
  rw [Ideal.multiReduction_add_single]
  exact Finset.sum_congr rfl fun k _ => congrArg src (lift_row h p k)

/-! ## The whole array -/

/-- The result array as ONE function of the argument array: entry (r, c) is the softmax of row r, numbered r, at
    lane c. -/
def G (x : (⟨2, ![8191, 16382]⟩ : Shape).Idx → EReal) : (⟨2, ![8191, 16382]⟩ : Shape).Idx → EReal :=
  fun i => rowSoftmax (BitVec.ofNat 32 (i 0).val) (fun c => x (ix2 (i 0) c)) (i 1)

theorem G_apply (x : (⟨2, ![8191, 16382]⟩ : Shape).Idx → EReal) (r : Fin 8191) (c : Fin 16382) :
    G x (ix2 r c) = rowSoftmax (BitVec.ofNat 32 r.val) (fun c' => x (ix2 r c')) c := rfl

/-- The maximum of a value and a fold of `max` that started from it is the fold. -/
theorem max_fold_max {ι : Type} (s : Finset ι) (a : EReal) (f : ι → EReal) : max a (s.fold max a f) = s.fold max a f :=
  max_eq_right ((Finset.le_fold_max a).mpr (Or.inl le_rfl))

end Cert.RowSoftmax

end
-- ==== Proof.IdealPayload.lean ====
/-
  The kernel's payload, read at an index at the ideal values: entry (p, q) of what the body stores is the row-wise
  masked softmax of ROW p of the block it loaded, at lane q — and of nothing else of the block.

  The payload is four stages: the masked magnitudes W (the block where the mask holds, zero elsewhere), the rows'
  maxima spread back along the rows, the exponentials E of the differences, and E over the rows' sums spread back.
  Each stage at (p, c) is a function of row p of the stage before, so the whole is a function of row p of the
  block; the mask at (p, c) compares 8192 plus the row's number — the block's first row plus p, on 32-bit words —
  with c.
-/
import proofs.«120278_j12884901888386_1_alg».proof.Proof.Gen.KernelIdeal.Skeleton
import proofs.«120278_j12884901888386_1_alg».proof.Proof.RowSoftmax

set_option maxRecDepth 16384

noncomputable section

namespace Cert.KernelIdeal.Payload

open Cert.KernelIdeal Cert.KernelIdeal.Gen
open Idealize.ShloMosaic Idealize.ShloMosaic.ValueIdx Cert.RowSoftmax

/-! ## The stages, over any mask -/

section Stages

variable (keep : IVec S64x16382 1) (x : FVec Ideal S64x16382 .f32)

/-- The masked magnitudes of the block. -/
def W : FVec Ideal S64x16382 .f32 :=
  select keep (absf x) (broadcast S64x16382 (FloatOps.ofBits (F := Ideal) .f32 0x00000000#32))

/-- The rows' maxima. -/
def M : FVec Ideal S64 .f32 :=
  multiReduction .maximumf [1] S64 (W keep x) 0xFF800000#32 reduces_S64x16382_S64 (.inl rfl) rfl

/-- The exponentials of the differences. -/
def Ex : FVec Ideal S64x16382 .f32 :=
  exp (subf (W keep x) (broadcastTo S64x16382 (shapeCast S64x1 (M keep x) shapeCasts_S64_S64x1) broadcasts_S64x1_S64x16382))

/-- The rows' sums. -/
def Sm : FVec Ideal S64 .f32 :=
  multiReduction .add [1] S64 (Ex keep x) 0x00000000#32 reduces_S64x16382_S64 (.inl rfl) rfl

/-- The quotients: what is stored. -/
def Out : FVec Ideal S64x16382 .f32 :=
  divf (Ex keep x) (broadcastTo S64x16382 (shapeCast S64x1 (Sm keep x) shapeCasts_S64_S64x1) broadcasts_S64x1_S64x16382)

/-- Row `p` of the masked magnitudes, lane by lane. -/
def wRow (p : Fin 64) (c : Fin 16382) : EReal :=
  Scalar.select (keep (ix2 p c)) (FloatOps.absf (F := Ideal) (φ := .f32) (x (ix2 p c))) (FloatOps.ofBits (F := Ideal) .f32 0x00000000#32)

/-- Row `p`'s maximum. -/
def mRow (p : Fin 64) : EReal :=
  (Finset.univ : Finset (Fin 16382)).fold max (FloatOps.ofBits (F := Ideal) .f32 0xFF800000#32) (wRow keep x p)

/-- Row `p` of the exponentials. -/
def eRow (p : Fin 64) (c : Fin 16382) : EReal :=
  FloatOps.exp (F := Ideal) (φ := .f32) (FloatOps.subf (F := Ideal) (φ := .f32) (wRow keep x p c) (mRow keep x p))

theorem W_apply (p : Fin 64) (c : Fin 16382) : W keep x (ix2 p c) = wRow keep x p c := rfl

theorem M_apply (p : Fin 64) : M keep x (ix1 p) = mRow keep x p :=
  (rowMax_apply (W keep x) 0xFF800000#32 reduces_S64x16382_S64 (.inl rfl) rfl p).trans rfl

theorem Ex_apply (p : Fin 64) (c : Fin 16382) : Ex keep x (ix2 p c) = eRow keep x p c := by
  show FloatOps.exp (F := Ideal) (φ := .f32) (FloatOps.subf (F := Ideal) (φ := .f32) (W keep x (ix2 p c))
    (broadcastTo S64x16382 (shapeCast S64x1 (M keep x) shapeCasts_S64_S64x1) broadcasts_S64x1_S64x16382 (ix2 p c))) = _
  rw [column_apply]
  show FloatOps.exp (F := Ideal) (φ := .f32) (FloatOps.subf (F := Ideal) (φ := .f32) (wRow keep x p c) (M keep x (ix1 p))) = _
  rw [M_apply]
  rfl

theorem Sm_apply (p : Fin 64) : Sm keep x (ix1 p) = ∑ c : Fin 16382, eRow keep x p c :=
  (rowSum_apply (Ex keep x) 0x00000000#32 reduces_S64x16382_S64 (.inl rfl) rfl p).trans
    (Finset.sum_congr rfl fun c _ => Ex_apply keep x p c)

/-- What is stored at (p, q): row p's exponential at q over row p's sum. -/
theorem Out_apply (p : Fin 64) (q : Fin 16382) :
    Out keep x (ix2 p q) = FloatOps.divf (F := Ideal) (φ := .f32) (eRow keep x p q) (∑ c : Fin 16382, eRow keep x p c) := by
  show FloatOps.divf (F := Ideal) (φ := .f32) (Ex keep x (ix2 p q))
    (broadcastTo S64x16382 (shapeCast S64x1 (Sm keep x) shapeCasts_S64_S64x1) broadcasts_S64x1_S64x16382 (ix2 p q)) = _
  rw [column_apply]
  show FloatOps.divf (F := Ideal) (φ := .f32) (Ex keep x (ix2 p q)) (Sm keep x (ix1 p)) = _
  rw [Ex_apply, Sm_apply]

end Stages

/-! ## The kernel's mask and payload -/

/-- The kernel's mask at grid point `i`: 8192 plus (the block's first row plus the row's place) against the lane. -/
def keepAt (i : grid0.Coords) : IVec S64x16382 1 :=
  cmpi .sgt (addi (broadcast S64x16382 8192#32)
      (addi (broadcast S64x16382 (Scalar.muli (BitVec.ofNat 32 (i 0).val) 64#32)) (iota .tc S64x16382 32 [0] iota_S64x16382_d0_w32)))
    (iota .tc S64x16382 32 [1] iota_S64x16382_d1_w32)

/-- The body's payload is the stages at the kernel's mask. -/
theorem pay_eq (i : grid0.Coords) (x : FVec Ideal S64x16382 .f32) : k0_pay1 (F := Ideal) i x = Out (keepAt i) x := rfl

/-- The word of the number of the row at place `p` of the block at grid point `i`. -/
def rowWord (i : grid0.Coords) (p : Fin 64) : BitVec 32 := BitVec.ofNat 32 ((i 0).val * 64 + p.val)

/-- The kernel's mask at (p, c) is the row's: 8192 plus the row's number against the lane. -/
theorem keepAt_apply (i : grid0.Coords) (p : Fin 64) (c : Fin 16382) : keepAt i (ix2 p c) = keepBit (rowWord i p) c := by
  show IntOp.cmpi .sgt (IntOp.addi 8192#32 (IntOp.addi (Scalar.muli (BitVec.ofNat 32 (i 0).val) 64#32)
      (iota .tc S64x16382 32 [0] iota_S64x16382_d0_w32 (ix2 p c)))) (iota .tc S64x16382 32 [1] iota_S64x16382_d1_w32 (ix2 p c)) = _
  rw [iota_single_apply, iota_single_apply]
  show IntOp.cmpi .sgt (IntOp.addi 8192#32 (IntOp.addi (Scalar.muli (BitVec.ofNat 32 (i 0).val) 64#32) (BitVec.ofNat 32 p.val)))
    (BitVec.ofNat 32 c.val) = _
  rw [rowWord_eq]
  rfl

/-- THE PAYLOAD AT AN INDEX: entry (p, q) of what the body stores from a block `x` is the row-wise masked softmax of
    row p of `x`, numbered by the block's first row plus p, at lane q. -/
theorem pay_apply (i : grid0.Coords) (x : FVec Ideal S64x16382 .f32) (p : Fin 64) (q : Fin 16382) :
    k0_pay1 (F := Ideal) i x (ix2 p q) = rowSoftmax (rowWord i p) (fun c => x (ix2 p c)) q := by
  have hw : wRow (keepAt i) x p = masked (rowWord i p) (fun c => x (ix2 p c)) := funext fun c => by
    unfold wRow masked; rw [keepAt_apply]
  have hm : mRow (keepAt i) x p = rowMax (rowWord i p) (fun c => x (ix2 p c)) := by
    unfold mRow rowMax; rw [hw]
  have he : eRow (keepAt i) x p = expd (rowWord i p) (fun c => x (ix2 p c)) := funext fun c => by
    unfold eRow expd; rw [hw, hm]
  rw [pay_eq, Out_apply, he]
  rfl

/-- So two blocks with the same row p give the same entries in row p: the rows of the result are computed apart. -/
theorem pay_row_congr (i : grid0.Coords) (x y : FVec Ideal S64x16382 .f32) (p : Fin 64)
    (h : ∀ c : Fin 16382, x (ix2 p c) = y (ix2 p c)) (q : Fin 16382) :
    k0_pay1 (F := Ideal) i x (ix2 p q) = k0_pay1 (F := Ideal) i y (ix2 p q) := by
  rw [pay_apply, pay_apply, show (fun c => x (ix2 p c)) = fun c => y (ix2 p c) from funext h]

end Cert.KernelIdeal.Payload

end
-- ==== Proof.IdealRun.lean ====
/-
  The idealized kernel's run: every weakly fair execution of it terminates with the argument array unchanged and
  the result array holding the row-wise masked softmax of the argument array.

  Point t of the 128-point grid works on rows 64t … 64t+63 of the array; the array has 8191 rows, so point 127 has
  63 rows inside the array, and its transfers are cut to them. Three facts carry the proof:
  the body's result on a row depends on that row of its input alone, so the rows inside the array of what the body
  stores do not depend on what the cut fetch left in the 64th row of the last block; row p of block t is row
  64t + p of the array, and the body numbers it so; and the blocks' rows inside the array are all of the array's rows.
-/
import proofs.«120278_j12884901888386_1_alg».proof.Proof.IdealData
import proofs.«120278_j12884901888386_1_alg».proof.Proof.IdealPayload

set_option maxRecDepth 16384

noncomputable section

namespace Cert.KernelIdeal.Run

open Cert.KernelIdeal Cert.KernelIdeal.Gen Cert.KernelIdeal.Body Cert.KernelIdeal.Payload Cert.RowSoftmax
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The grid's arithmetic -/

/-- Decided over the 128 points: point t's coordinate is t; both windows' block at t is block (t, 0); both are cut
    alike on the rows and not at all on the lanes; and the rows of block t inside the array end within the array, at
    its last row unless the block is a whole 64 rows. -/
theorem grid_facts : ∀ t : Fin cfg0.N,
    ((grid0.coords t) 0).val = t.val
    ∧ win0_0.index t (0 : Fin 2) = t.val ∧ win0_0.index t (1 : Fin 2) = 0
    ∧ win0_1.index t (0 : Fin 2) = t.val ∧ win0_1.index t (1 : Fin 2) = 0
    ∧ win0_0.xsize (grid0.coords t) (0 : Fin 2) = win0_1.xsize (grid0.coords t) (0 : Fin 2)
    ∧ win0_0.xsize (grid0.coords t) (1 : Fin 2) = 16382 ∧ win0_1.xsize (grid0.coords t) (1 : Fin 2) = 16382
    ∧ t.val * 64 + win0_1.xsize (grid0.coords t) (0 : Fin 2) ≤ 8191
    ∧ (8191 ≤ t.val * 64 + win0_1.xsize (grid0.coords t) (0 : Fin 2) ∨ win0_1.xsize (grid0.coords t) (0 : Fin 2) = 64) :=
  (by decide +kernel : ∀ t : Fin grid0.N, _)

/-! ## The rows inside the array do not see the filler -/

/-- A coordinate of an entry of a block's part inside the array is below the part's extent on its axis (stated of any
    window, so that the extents are compared as written). -/
theorem coord_lt {G : Pipeline.Grid} (w : Pipeline.Window sig G) (i : G.Coords) (j : (w.xblock i).Idx)
    (a : Fin w.shape.rank) : (j a).val < w.xsize i a := (j a).isLt

/-- An entry of the block's part inside the array, as an entry of the 64-row block. -/
theorem xinj_eq (t : Fin cfg0.N) (j : (win0_1.xblock (grid0.coords t)).Idx)
    (h0 : (j (0 : Fin 2)).val < 64) (h1 : (j (1 : Fin 2)).val < 16382) :
    win0_1.xinj (grid0.coords t) j = ix2 (⟨(j (0 : Fin 2)).val, h0⟩ : Fin 64) (⟨(j (1 : Fin 2)).val, h1⟩ : Fin 16382) :=
  funext fun a => Fin.ext (by match a with | ⟨0, _⟩ => rfl | ⟨1, _⟩ => rfl)

/-- Two fillings of one fetched block agree on every row inside the array. -/
theorem fill_row (t : Fin cfg0.N) (d d' : S64x16382.Idx → EReal) (g : (win0_0.xblock (grid0.coords t)).Idx → EReal)
    (p : Fin 64) (hp : p.val < win0_0.xsize (grid0.coords t) (0 : Fin 2)) (c : Fin 16382) :
    win0_0.fill (grid0.coords t) d g (ix2 p c) = win0_0.fill (grid0.coords t) d' g (ix2 p c) := by
  obtain ⟨-, -, -, -, -, -, hx1, -, -, -⟩ := grid_facts t
  have hm : win0_0.moved (grid0.coords t) (ix2 p c) = true :=
    (win0_0.moved_iff _ _).mpr fun a => by
      match a with
      | ⟨0, _⟩ => exact hp
      | ⟨1, _⟩ => show c.val < win0_0.xsize (grid0.coords t) (1 : Fin 2); have := c.isLt; omega
  unfold Window.fill
  rw [dif_pos hm, dif_pos hm]

/-- So the rows inside the array of what the body stores do not depend on the filler. -/
theorem cut_pay (t : Fin cfg0.N) (d d' : S64x16382.Idx → EReal) (g : (win0_0.xblock (grid0.coords t)).Idx → EReal) :
    win0_1.cut (grid0.coords t) (k0_pay1 (F := Ideal) (grid0.coords t) (win0_0.fill (grid0.coords t) d g))
      = win0_1.cut (grid0.coords t) (k0_pay1 (F := Ideal) (grid0.coords t) (win0_0.fill (grid0.coords t) d' g)) := by
  obtain ⟨-, -, -, -, -, hx0, -, hy1, -, -⟩ := grid_facts t
  funext j
  have hj0 := coord_lt win0_1 (grid0.coords t) j (0 : Fin 2)
  have hj1 := coord_lt win0_1 (grid0.coords t) j (1 : Fin 2)
  have h64 : win0_1.xsize (grid0.coords t) (0 : Fin 2) ≤ 64 := win0_1.xsize_le _ (0 : Fin 2)
  show k0_pay1 (F := Ideal) (grid0.coords t) (win0_0.fill (grid0.coords t) d g) (win0_1.xinj (grid0.coords t) j)
    = k0_pay1 (F := Ideal) (grid0.coords t) (win0_0.fill (grid0.coords t) d' g) (win0_1.xinj (grid0.coords t) j)
  rw [xinj_eq t j (by omega) (by omega)]
  exact pay_row_congr _ _ _ _ (fun c => fill_row t d d' g _ (by show (j (0 : Fin 2)).val < _; omega) c) _

/-! ## The body obligation -/

/-- At every point: the input's buffer arrives holding its block's rows inside the array and anything past them, the
    output's holding anything; the body leaves the input's as it was and the output's at the row-softmax of it,
    which on the rows inside the array is the data's. -/
theorem body_obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0, before_1 m c t d1]
  iapply (Body.run (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_0.fill (grid0.coords t) d0 (iblk m c 0 t)) _)
  isplitl [H0]; · iexact H0
  isplitl [H1]; · iexists d1; iexact H1
  iintro ⟨H0, H1⟩
  isplitl [HΦ]; · iexact HΦ
  isplitl [Ho]; · iexact Ho
  isplitl [H0]
  · iexists d0
    rw [after_0]
    unfold inBlk
    rw [Window.cut_fill]
    iexact H0
  · iexists k0_pay1 (F := Ideal) (grid0.coords t) (win0_0.fill (grid0.coords t) d0 (iblk m c 0 t))
    rw [after_1]
    unfold inBlk
    rw [win0_1.fill_congr_cut (grid0.coords t) (cut_pay t d0 (zeros (F := Ideal)) (iblk m c 0 t))]
    iexact H1

/-! ## The frame run -/

set_option backward.isDefEq.respectTransparency.types false in
/-- Every weakly fair execution terminates, each array of the pipeline at what the library computes from the proof
    data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run, read at the argument array. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Run

end
-- ==== Proof.IdealValue.lean ====
/-
  The idealized kernel's result array after the run is the row-wise masked softmax of the argument array.

  What point t writes back is its block's rows inside the array; row p of it is the softmax of row p of the fetched
  block, which is row 64t + p of the array, numbered 64t + p by the body: the same row of the one whole-array
  function. Every row r of the array is written, by point r / 64. So the array ends holding that function.
-/
import proofs.«120278_j12884901888386_1_alg».proof.Proof.IdealRun

set_option maxRecDepth 16384

noncomputable section

namespace Cert.KernelIdeal.Result

open Cert.KernelIdeal Cert.KernelIdeal.Gen Cert.KernelIdeal.Body Cert.KernelIdeal.Payload Cert.KernelIdeal.Run Cert.RowSoftmax
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Row p of the block fetched at point t, where it lies inside the array, is row 64t + p of the argument array. -/
theorem inBlk_row (c : Dev nD) (t : Fin cfg0.N) (p : Fin 64) (hp : p.val < win0_0.xsize (grid0.coords t) (0 : Fin 2))
    (hr : t.val * 64 + p.val < 8191) (q : Fin 16382) :
    inBlk (F := Ideal) m c t (ix2 p q) = V m c main_arg0 (ix2 (⟨t.val * 64 + p.val, hr⟩ : Fin 8191) q) := by
  obtain ⟨-, hi00, hi01, -, -, -, hx1, -, -, -⟩ := grid_facts t
  have hm : win0_0.moved (grid0.coords t) (ix2 p q) = true :=
    (win0_0.moved_iff _ _).mpr fun a => by
      match a with
      | ⟨0, _⟩ => exact hp
      | ⟨1, _⟩ => show q.val < win0_0.xsize (grid0.coords t) (1 : Fin 2); have := q.isLt; omega
  unfold inBlk Window.fill
  rw [dif_pos hm]
  show V m c main_arg0 (((cfg0.win 0).blk t).view.emb _) = _
  refine congrArg (V m c main_arg0) ((eq_ix2 _).trans (congrArg₂ ix2 (Fin.ext ?_) (Fin.ext ?_)))
  · show win0_0.index t (0 : Fin 2) * 64 + 1 * p.val = t.val * 64 + p.val; omega
  · show win0_0.index t (1 : Fin 2) * 16382 + 1 * q.val = q.val; omega

/-- WHAT POINT t WRITES BACK is block t, cut at the array's end, of the row-wise masked softmax of the argument array. -/
theorem flushed_eq (c : Dev nD) (t : Fin cfg0.N) :
    (dats (F := Ideal) m 0 c).flushed 1 t = ((cfg0.win 1).blk t).view.read (Elt Ideal) (G (V m c main_arg0)) := by
  show (cfg0.win 1).cut (grid0.coords t) ((dats m 0 c).after 1 t) = _
  rw [after_1]
  obtain ⟨hc, -, -, hi10, hi11, hx0, -, hy1, hend, -⟩ := grid_facts t
  funext j
  have hj0 := coord_lt win0_1 (grid0.coords t) j (0 : Fin 2)
  have hj1 := coord_lt win0_1 (grid0.coords t) j (1 : Fin 2)
  have h64 : win0_1.xsize (grid0.coords t) (0 : Fin 2) ≤ 64 := win0_1.xsize_le _ (0 : Fin 2)
  have hr : t.val * 64 + (j (0 : Fin 2)).val < 8191 := by omega
  have h0 : (j (0 : Fin 2)).val < 64 := by omega
  have h1 : (j (1 : Fin 2)).val < 16382 := by omega
  show k0_pay1 (F := Ideal) (grid0.coords t) (inBlk m c t) (win0_1.xinj (grid0.coords t) j)
    = G (V m c main_arg0) (((cfg0.win 1).blk t).view.emb j)
  have e : ((cfg0.win 1).blk t).view.emb j
      = ix2 (⟨t.val * 64 + (j (0 : Fin 2)).val, hr⟩ : Fin 8191) (⟨(j (1 : Fin 2)).val, h1⟩ : Fin 16382) := by
    refine (eq_ix2 _).trans (congrArg₂ ix2 (Fin.ext ?_) (Fin.ext ?_))
    · show win0_1.index t (0 : Fin 2) * 64 + 1 * (j (0 : Fin 2)).val = t.val * 64 + (j (0 : Fin 2)).val; omega
    · show win0_1.index t (1 : Fin 2) * 16382 + 1 * (j (1 : Fin 2)).val = (j (1 : Fin 2)).val; omega
  rw [xinj_eq t j h0 h1, pay_apply, e, G_apply]
  have hw : rowWord (grid0.coords t) (⟨(j (0 : Fin 2)).val, h0⟩ : Fin 64) = BitVec.ofNat 32 (t.val * 64 + (j (0 : Fin 2)).val) := by
    unfold rowWord; rw [hc]
  have hrow : (fun q : Fin 16382 => inBlk (F := Ideal) m c t (ix2 (⟨(j (0 : Fin 2)).val, h0⟩ : Fin 64) q))
      = fun q : Fin 16382 => V m c main_arg0 (ix2 (⟨t.val * 64 + (j (0 : Fin 2)).val, hr⟩ : Fin 8191) q) :=
    funext fun q => inBlk_row m c t _ (by show (j (0 : Fin 2)).val < _; omega) hr q
  rw [hw, hrow]

/-- An index of the array is in point t's block iff, on each axis, it is among the block's coordinates inside the
    array. -/
theorem mem_blk (t : Fin cfg0.N) (i : S8191x16382.Idx) :
    i ∈ ((cfg0.win 1).blk t).view.set ↔ ∀ a : Fin 2, win0_1.index t a * S64x16382.size a ≤ (i a).val
      ∧ (i a).val < win0_1.index t a * S64x16382.size a + win0_1.xsize (grid0.coords t) a := by
  show i ∈ ((View.whole main_v0).slice (win0_1.rect t)).set ↔ _
  rw [View.set_slice_whole, Rect.mem_set_unit]
  exact Iff.rfl

/-- Every index of the array is in the block of the point its row falls to. -/
theorem cover (i : S8191x16382.Idx) :
    ∃ t : Fin cfg0.N, (cfg0.win 1).flush t = true ∧ i ∈ ((cfg0.win 1).blk t).view.set := by
  have hi0 : (i (0 : Fin 2)).val < 8191 := (i (0 : Fin 2)).isLt
  have hi1 : (i (1 : Fin 2)).val < 16382 := (i (1 : Fin 2)).isLt
  have hN : cfg0.N = 128 := N_0
  refine ⟨⟨(i (0 : Fin 2)).val / 64, by rw [hN]; omega⟩, flush0_1 _, ?_⟩
  obtain ⟨-, -, -, hi10, hi11, -, -, hy1, hend, hfull⟩ := grid_facts ⟨(i (0 : Fin 2)).val / 64, by rw [hN]; omega⟩
  rw [mem_blk]
  intro a
  match a with
  | ⟨0, _⟩ =>
    show win0_1.index _ (0 : Fin 2) * 64 ≤ (i (0 : Fin 2)).val
      ∧ (i (0 : Fin 2)).val < win0_1.index _ (0 : Fin 2) * 64 + win0_1.xsize _ (0 : Fin 2)
    simp only at hi10 hend hfull
    omega
  | ⟨1, _⟩ =>
    show win0_1.index _ (1 : Fin 2) * 16382 ≤ (i (1 : Fin 2)).val
      ∧ (i (1 : Fin 2)).val < win0_1.index _ (1 : Fin 2) * 16382 + win0_1.xsize _ (1 : Fin 2)
    omega

/-- THE RESULT ARRAY after the run: the row-wise masked softmax of the argument array. -/
theorem final (c : Dev nD) : (dats (F := Ideal) m 0 c).arrAt 1 cfg0.N = G (V m c main_arg0) :=
  (dats m 0 c).arrAt_eq_of_cover 1 _ (fun t _ => flushed_eq m c t) cover

/-- The run, read: the result array at the softmax of the argument array, the argument array unchanged. -/
theorem run : θ_run defs (onTc (τ := τ) (main (F := Ideal))) ⟨m, fun _ => 0, ρ⟩ (fun r => ∀ c : Dev nD,
      r.2.mem ((c.tc : Thread nD τ).loc main_v0) = G (m ((c.tc : Thread nD τ).loc main_arg0))
      ∧ r.2.mem ((c.tc : Thread nD τ).loc main_arg0) = m ((c.tc : Thread nD τ).loc main_arg0)) :=
  (θ_run defs _ _).mono
    (fun r h c => ⟨((h c).1 1).trans (final m c),
      ((h c).1 0).trans (((dats m 0 c).arrAt_in 0 rfl _).trans ((A_eq m c 0).trans (V_main_arg0 m c)))⟩)
    (run_main m ρ)

end Cert.KernelIdeal.Result

end
-- ==== Proof.RefValue.lean ====
/-
  The reference's result, at the ideal values, is the row-wise masked softmax of its argument: entry (r, c) is the
  softmax of row r, numbered r, at lane c.

  The reference builds the mask from two iotas spread over the array (8192 plus the row's number against the lane),
  zeroes `|x|` outside it, takes each row's maximum (a reduction from minus infinity, then once more the maximum
  with minus infinity, which changes nothing: the reduction already started there), subtracts it, exponentiates,
  sums each row from zero, and divides. Stage by stage this is the function of a row.
-/
import proofs.«120278_j12884901888386_1_alg».proof.Proof.Gen.ReferenceIdeal.Read
import proofs.«120278_j12884901888386_1_alg».proof.Proof.RowSoftmax

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.RowSoftmax

variable (x : (⟨S8191x16382, .f32⟩ : BufTy).Contents (Elt Ideal))

/-- The mask at (r, c): 8192 plus the row's number against the lane. -/
theorem keep_apply (r : Fin 8191) (c : Fin 16382) :
    val_main_v8 (F := Ideal) (ix2 r c) = keepBit (BitVec.ofNat 32 r.val) c := by
  rw [val_main_v8_apply, val_main_v6_apply, val_main_v5_apply, val_main_v4_apply, val_main_c_apply, val_main_v1_apply,
    val_main_v0_apply, val_main_v7_apply, val_main_v3_apply, val_main_v2_apply]
  rfl

/-- The masked magnitudes at (r, c). -/
theorem masked_apply (r : Fin 8191) (c : Fin 16382) :
    val_main_v10 (F := Ideal) x (ix2 r c) = masked (BitVec.ofNat 32 r.val) (fun c' => x (ix2 r c')) c := by
  rw [val_main_v10_apply, keep_apply, val_main_v9_apply, val_main_call0_v0_apply, val_main_cst_apply]
  rfl

/-- Row r's maximum: the reduction is the fold of `max` over the row's lanes from minus infinity's pattern, and the
    further maximum with that pattern leaves it. -/
theorem rowMax_apply' (r : Fin 8191) :
    val_main_v13 (F := Ideal) x (ix1 r) = rowMax (BitVec.ofNat 32 r.val) (fun c' => x (ix2 r c')) := by
  have hred : S8191x16382.Reduces [1] S8191 := by decide
  have hfold : val_main_v11 (F := Ideal) x (ix1 r)
      = (Finset.univ : Finset (Fin 16382)).fold max (FloatOps.ofBits (F := Ideal) .f32 0xFF800000#32)
          (masked (BitVec.ofNat 32 r.val) (fun c' => x (ix2 r c'))) := by
    refine (Host.reduce_eq_fold_single (FloatOps.maximumf (F := Ideal) (φ := .f32)) (val_main_v10 (F := Ideal) x)
      (val_main_cst_0 (F := Ideal)) reducesTo_S8191x16382_S8191_d1 hred h_S_ (ix1 r)).trans ?_
    have e : (val_main_v10 (F := Ideal) x ∘ hred.lift (ix1 r)) = masked (BitVec.ofNat 32 r.val) (fun c' => x (ix2 r c')) :=
      funext fun (k : Fin 16382) =>
        (congrArg (val_main_v10 (F := Ideal) x) (lift_row hred r k)).trans (masked_apply x r k)
    rw [e]
    rfl
  rw [val_main_v13_apply, val_main_v12_apply, val_main_cst_1_apply, hfold]
  exact max_fold_max _ _ _

/-- The exponentials at (r, c). -/
theorem expd_apply (r : Fin 8191) (c : Fin 16382) :
    val_main_v17 (F := Ideal) x (ix2 r c) = expd (BitVec.ofNat 32 r.val) (fun c' => x (ix2 r c')) c := by
  have e : idx_main_v14 (idx_main_v15 (ix2 r c)) = ix1 r :=
    funext fun a => Fin.ext (by match a with | ⟨0, _⟩ => rfl)
  rw [val_main_v17_apply, val_main_v16_apply, masked_apply, val_main_v15_apply, val_main_v14_apply, e, rowMax_apply']
  rfl

/-- Row r's sum, from zero. -/
theorem rowSum_apply' (r : Fin 8191) :
    val_main_v18 (F := Ideal) x (ix1 r) = ∑ c : Fin 16382, expd (BitVec.ofNat 32 r.val) (fun c' => x (ix2 r c')) c := by
  rw [val_main_v18_apply, val_main_cst_2_apply]
  have z : FloatOps.ofBits (F := Ideal) .f32 0x00000000#32 = (0 : EReal) := Ideal.ofBits_zero_f32
  rw [z, zero_add]
  refine Finset.sum_congr rfl fun k _ => ?_
  have e : idx_main_v18 (ix1 r) k = ix2 r k :=
    funext fun a => Fin.ext (by match a with | ⟨0, _⟩ => rfl | ⟨1, _⟩ => rfl)
  rw [e, expd_apply]

/-- THE REFERENCE IS `G`: its result, as a function of its argument, is the row-wise masked softmax. -/
theorem result_eq : val_main_v21 (F := Ideal) x = G x := by
  funext i
  obtain ⟨r, c, rfl⟩ : ∃ (r : Fin 8191) (c : Fin 16382), i = ix2 r c := ⟨i 0, i 1, eq_ix2 i⟩
  have e : idx_main_v19 (idx_main_v20 (ix2 r c)) = ix1 r :=
    funext fun a => Fin.ext (by match a with | ⟨0, _⟩ => rfl)
  rw [val_main_v21_apply, expd_apply, val_main_v20_apply, val_main_v19_apply, e, rowSum_apply', G_apply]
  rfl

end Cert.ReferenceIdeal.RefValue

end
-- ==== Proof.lean ====
/-
  The certificate of a row-wise masked softmax kernel against its jnp reference.

  THE CLAIM. Over an array x of 8191 rows and 16382 lanes, both programs compute, for each row r,
      w(r, c) = |x(r, c)|  where  8192 + r > c,  and 0 elsewhere;
      m(r)    = the maximum of w(r, ·) (from minus infinity);
      e(r, c) = exp (w(r, c) - m(r));
      out(r, c) = e(r, c) / Σ_c e(r, c),
  and at the ideal values — floats extended reals, every operation exact — their results are equal entry by entry.

  WHY. The kernel works on 128 blocks of 64 rows, the reference on the whole array; on a row both apply the same
  operations in the same order (absolute value, select, a maximum from minus infinity, difference, exponential, a
  sum from zero, quotient), so no algebraic law is needed beyond: the reference's extra maximum with minus infinity
  changes nothing (a fold of `max` that starts at a value stays above it), its sum starts from a zero that adds
  nothing, and the kernel's row number — the block's first row plus the place in the block, on 32-bit words — is
  the word of the row's number. The finiteness of the inputs is never used: the equality holds on all extended reals.
  What needs care is the last block: the array's 8191 rows are one short of 128 blocks, so the last block's 64th
  row lies past the array, the fetch leaves words nothing names there, and the body computes from them too. Because
  each row of the result depends on that row of the block alone, the 63 rows written back are unaffected.

  THE PARTS. The idealized kernel's run and its result array (Proof/IdealBody, IdealData, IdealPayload, IdealRun,
  IdealValue), the function of a row and of the array (Proof/RowSoftmax), the reference's result (Proof/RefValue, over
  the reference's run and its operations read at an index), and the frame of the kernel as printed, which says
  nothing of the result array (Proof/KernelBody, KernelData, KernelFrame). The ideal pass rewrote no operation, so
  the idealization is the program's own text and there is nothing to preserve.
-/
import proofs.«120278_j12884901888386_1_alg».proof.Defs
import proofs.«120278_j12884901888386_1_alg».proof.Proof.Gen.Kernel
import proofs.«120278_j12884901888386_1_alg».proof.Proof.Gen.KernelIdeal
import proofs.«120278_j12884901888386_1_alg».proof.Proof.Gen.ReferenceIdeal
import proofs.«120278_j12884901888386_1_alg».proof.Proof.Gen.Pre_finite_inputs
import proofs.«120278_j12884901888386_1_alg».proof.Proof.Gen.ReferenceIdeal.Run
import proofs.«120278_j12884901888386_1_alg».proof.Proof.Gen.ReferenceIdeal.Read
import proofs.«120278_j12884901888386_1_alg».proof.Proof.KernelFrame
import proofs.«120278_j12884901888386_1_alg».proof.Proof.IdealValue
import proofs.«120278_j12884901888386_1_alg».proof.Proof.RefValue

noncomputable section

namespace Cert.Proof

open Idealize.ShloMosaic Idealize.ShloMosaic.TcCoe Idealize.SL.Sem

/-- The kernel as printed runs and leaves its argument array unchanged. -/
theorem frame_kernel : Cert.frame_Kernel := fun m ρ _ => Cert.Kernel.WordFrame.frame (F := Bits) m ρ

/-- So does the idealized kernel. -/
theorem frame_kernelIdeal : Cert.frame_KernelIdeal := fun m ρ _ => Cert.KernelIdeal.Run.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the row-wise masked softmax of the argument array in their result. -/
theorem algebraic : Cert.algebraic_KernelIdeal_ReferenceIdeal := by
  intro m ρ m' ρ' _ hagree
  refine ⟨fun c => Cert.RowSoftmax.G (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v21_eq _).trans
    ((Cert.ReferenceIdeal.RefValue.result_eq _).trans (congrArg Cert.RowSoftmax.G (hagree c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
